-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10000 : Shape := ⟨2, ![8192, 10000]⟩
abbrev S_ : Shape := ⟨0, ![]⟩

class Facts : Prop where
  bcast_S_S8192x10000 : S_.BroadcastsInDim S8192x10000 (![] : Fin 0 → Fin S8192x10000.rank)
  reducesTo_S8192x10000_S_d0_1 : S8192x10000.ReducesTo [0, 1] S_
  h_S_ : 0 < S_.numel

variable [Facts]

def fn {F : FTy → Type} [FloatOps F] (main_arg0 : FVec F S8192x10000 .f32) (main_arg1 : FVec F S8192x10000 .f32) : IVec S_ 1 :=
  let main_v0 : FVec F S8192x10000 .f32 := Host.absf main_arg0
  let main_cst : FVec F S_ .f32 := constant S_ .f32 0x7F800000#32
  let main_v1 : FVec F S8192x10000 .f32 := broadcastInDim S8192x10000 ![] bcast_S_S8192x10000 main_cst
  let main_v2 : IVec S8192x10000 1 := cmpf .olt main_v0 main_v1
  let main_c : IVec S_ 1 := constantI S_ 1 1#1
  let main_v3 : IVec S_ 1 := (fun x v => Host.reduce IntOp.andi x v reducesTo_S8192x10000_S_d0_1 h_S_) main_v2 main_c
  let main_v4 : FVec F S8192x10000 .f32 := Host.absf main_arg1
  let main_cst_0 : FVec F S_ .f32 := constant S_ .f32 0x7F800000#32
  let main_v5 : FVec F S8192x10000 .f32 := broadcastInDim S8192x10000 ![] bcast_S_S8192x10000 main_cst_0
  let main_v6 : IVec S8192x10000 1 := cmpf .olt main_v4 main_v5
  let main_c_1 : IVec S_ 1 := constantI S_ 1 1#1
  let main_v7 : IVec S_ 1 := (fun x v => Host.reduce IntOp.andi x v reducesTo_S8192x10000_S_d0_1 h_S_) main_v6 main_c_1
  let main_v8 : IVec S_ 1 := andi main_v3 main_v7
  main_v8
-- ==== Kernel.lean ====
abbrev S8192x10000 : Shape := ⟨2, ![8192, 10000]⟩
abbrev S8192x1 : Shape := ⟨2, ![8192, 1]⟩
abbrev S128x10000 : Shape := ⟨2, ![128, 10000]⟩
abbrev S128x1 : Shape := ⟨2, ![128, 1]⟩
abbrev S128 : Shape := ⟨1, ![128]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S8192x10000, .f32⟩
  | .hbm, ⟨1, _⟩ => ⟨S8192x10000, .f32⟩
  | .hbm, ⟨2, _⟩ => ⟨S8192x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S128x10000, .f32⟩
  | .local _ .vmem, ⟨1, _⟩ => ⟨S128x10000, .f32⟩
  | .local _ .vmem, ⟨2, _⟩ => ⟨S128x10000, .f32⟩
  | .local _ .vmem, ⟨3, _⟩ => ⟨S128x10000, .f32⟩
  | .local _ .vmem, ⟨4, _⟩ => ⟨S128x1, .f32⟩
  | .local _ .vmem, ⟨5, _⟩ => ⟨S128x1, .f32⟩
  | _, _ => ⟨S8192x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x10000_S128x10000_0_0 : ∀ a, (![0, 0] : Fin 2 → Nat) a + S128x10000.size a ≤ S128x10000.size a
  h_S128x10000 : 0 < S128x10000.numel
  reduces_S128x10000_S128 : S128x10000.Reduces [1] S128
  shapeCasts_S128_S128x1 : S128.ShapeCasts S128x1
  broadcasts_S128x1_S128x10000 : S128x1.Broadcasts S128x10000
  inb_S128x1_S128x1_0_0 : ∀ a, (![0, 0] : Fin 2 → Nat) a + S128x1.size a ≤ S128x1.size a
  h_S128x1 : 0 < S128x1.numel
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S8192x10000.size a
  hwx0_0 : ∀ i : grid0.Coords, EltTy.bits .f32 = 32 ∨ (Rect.block (s := S8192x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x10000.size a ≤ S8192x10000.size a
  hwx0_1 : ∀ i : grid0.Coords, EltTy.bits .f32 = 32 ∨ (Rect.block (s := S8192x10000) S128x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)

variable [Facts₀]

abbrev win0_0 : Pipeline.Window sig grid0 :=
  Pipeline.Window.ofSpec (Memref.whole main_arg0) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x10000 : Shape := ⟨2, ![8192, 10000]⟩
abbrev S_ : Shape := ⟨0, ![]⟩
abbrev S8192 : Shape := ⟨1, ![8192]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x10000, .f32⟩
  | .hbm, ⟨1, _⟩ => ⟨S8192x10000, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x10000, .f32⟩
  | .hbm, ⟨9, _⟩ => ⟨S8192x10000, .f32⟩
  | .hbm, ⟨10, _⟩ => ⟨S8192x10000, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x10000, .f32⟩
  | .hbm, ⟨16, _⟩ => ⟨S8192x10000, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x10000, .f32⟩
  | .hbm, ⟨24, _⟩ => ⟨S8192x10000, .f32⟩
  | .hbm, ⟨25, _⟩ => ⟨S8192x10000, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x1, .f32⟩
  | .hbm, ⟨30, _⟩ => ⟨S8192x10000, .f32⟩
  | .hbm, ⟨31, _⟩ => ⟨S8192x10000, .f32⟩
  | .hbm, ⟨32, _⟩ => ⟨S_, .f32⟩
  | .hbm, ⟨33, _⟩ => ⟨S8192x10000, .f32⟩
  | .hbm, ⟨34, _⟩ => ⟨S8192x10000, .i1⟩
  | .hbm, ⟨35, _⟩ => ⟨S_, .f32⟩
  | .hbm, ⟨36, _⟩ => ⟨S8192x10000, .f32⟩
  | .hbm, ⟨37, _⟩ => ⟨S8192x10000, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S8192x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_call1_cst : Ref sig .tc := ⟨.hbm, 17, rfl⟩
abbrev main_call1_v0 : Ref sig .tc := ⟨.hbm, 18, rfl⟩
abbrev main_call1_cst_0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_cst_1 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_v1 : Ref sig .tc := ⟨.hbm, 31, rfl⟩
abbrev main_cst : Ref sig .tc := ⟨.hbm, 32, rfl⟩
abbrev main_v2 : Ref sig .tc := ⟨.hbm, 33, rfl⟩
abbrev main_v3 : Ref sig .tc := ⟨.hbm, 34, rfl⟩
abbrev main_cst_0 : Ref sig .tc := ⟨.hbm, 35, rfl⟩
abbrev main_call2_v0 : Ref sig .tc := ⟨.hbm, 36, rfl⟩
abbrev main_v4 : Ref sig .tc := ⟨.hbm, 37, rfl⟩
abbrev main_cst_1 : Ref sig .tc := ⟨.hbm, 38, rfl⟩
abbrev main_v5 : Ref sig .tc := ⟨.hbm, 39, rfl⟩
abbrev main_v6 : Ref sig .tc := ⟨.hbm, 40, rfl⟩
abbrev main_cst_2 : Ref sig .tc := ⟨.hbm, 41, rfl⟩
abbrev main_v7 : Ref sig .tc := ⟨.hbm, 42, rfl⟩
abbrev main_cst_3 : Ref sig .tc := ⟨.hbm, 43, rfl⟩
abbrev main_v8 : Ref sig .tc := ⟨.hbm, 44, rfl⟩

abbrev nD : Nat := 1
abbrev τ : Topo := Topo.v7x

variable {F : FTy → Type} [FloatOps F]

class Facts₀ : Prop where
  reducesTo_S8192x10000_S8192_d1 : S8192x10000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10000_0_1 : S8192x1.BroadcastsInDim S8192x10000 (![0, 1] : Fin 2 → Fin S8192x10000.rank)
  bcast_S_S8192x10000 : S_.BroadcastsInDim S8192x10000 (![] : Fin 0 → Fin S8192x10000.rank)
  reducesTo_S8192_S_d0 : S8192.ReducesTo [0] S_

variable [Facts₀]

class Facts : Prop extends Facts₀ where

variable [Facts]
-- ==== Proof.RowSpec.lean ====
/-
  A row's loss under a doubly applied log-softmax, on the extended reals, in the two arrangements
  that are compared.

  For a row `x` of scores and a mask `μ` of target entries, write `s k = x k - max x` for the shifted
  row and `L = log Σ exp s` for its normaliser, so that `log_softmax x = s - L`.

  * In ONE PASS: the second log-softmax is never formed.  The row `(s - L) + L` is normalised again,
    `L₂ = log Σ exp ((s - L) + L)`, and the loss is `L₂ - max over the targets of ((s - L) + L)`,
    the maximum of an empty set of targets being `-∞`.
  * In TWO PASSES: `log_softmax` is applied twice, each time subtracting the row's maximum (taken
    from `-∞`, and joined once more with `-∞`) and the logarithm of the sum, started from `0`, of the
    exponentials; the loss is the negated maximum over the targets of the result.

  `maxOver a f` is the greatest of `a` and the entries of `f`; `meanOf` divides the sum of the rows'
  losses, started from `0`, by the number the word `0x46000000` denotes (8192).
-/
import Idealize.ShloMosaic.PureOps.Ideal

noncomputable section

namespace Cert.RowLoss

open Idealize.ShloMosaic

variable {n b : Nat}

/-- The greatest of `a` and the entries `f k`. -/
def maxOver (a : EReal) (f : Fin n → EReal) : EReal := (Finset.univ : Finset (Fin n)).fold max a f

/-- Whether a label entry marks a target: it equals one. -/
def isTarget (y : EReal) : BitVec 1 :=
  FloatOps.cmpf (F := Ideal) (φ := .f32) .oeq y (FloatOps.ofBits (F := Ideal) .f32 0x3F800000#32)

/-- The logarithm of the sum of the exponentials of a row. -/
def logSumExp (y : Fin n → EReal) : EReal := Ideal.log (∑ k, Ideal.exp (y k))

/-- A row less its maximum. -/
def shifted (x : Fin n → EReal) (k : Fin n) : EReal := x k - maxOver ⊥ x

/-- The shifted row with its normaliser subtracted and added back. -/
def recentred (x : Fin n → EReal) (k : Fin n) : EReal :=
  (shifted x k - logSumExp (shifted x)) + logSumExp (shifted x)

/-- The loss in one pass. -/
def lossOnePass (x : Fin n → EReal) (μ : Fin n → BitVec 1) : EReal :=
  logSumExp (recentred x) - maxOver ⊥ (fun k => if μ k = 1 then recentred x k else ⊥)

/-- One application of log-softmax to a row, as the two-pass arrangement spells it. -/
def logSoftmax (x : Fin n → EReal) (k : Fin n) : EReal :=
  (x k - max ⊥ (maxOver ⊥ x)) - Ideal.log (0 + ∑ j, Ideal.exp (x j - max ⊥ (maxOver ⊥ x)))

/-- The loss in two passes. -/
def lossTwoPass (x : Fin n → EReal) (μ : Fin n → BitVec 1) : EReal :=
  - maxOver ⊥ (fun k => if μ k = 1 then logSoftmax (logSoftmax x) k else ⊥)

/-- The mean of the rows' losses: their sum from `0`, divided by the number of rows as the programs write it. -/
def meanOf (rows : Fin b → EReal) : EReal := Ideal.div (0 + ∑ r, rows r) (Ideal.ofBits .f32 0x46000000#32)

end Cert.RowLoss

end
-- ==== Proof.KernelRow.lean ====
/-
  The value one row of the kernel body computes, read at the row's coordinate.

  The body's arithmetic is one pure term of two loaded blocks: the scores `v0` and the labels `v17`,
  both `128 × 10000`.  Read at `(p, 0)` of its `128 × 1` result it is the one-pass loss of row `p`:
  the row maximum is the fold of `max` from `-∞` over the row's 10000 coordinates, the two
  normalisers are `Fin 10000`-indexed sums of exponentials, the shape cast `[128] → [128, 1]` and the
  broadcast `[128, 1] → [128, 10000]` read the row's value at every column, and every other
  operation acts entry by entry.
-/
import proofs.«143791_j31525059953025_2_alg».proof.Proof.RowSpec
import proofs.«143791_j31525059953025_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RowValue

open Cert.KernelIdeal Cert.KernelIdeal.Gen Idealize.ShloMosaic Idealize.ShloMosaic.ValueIdx

/-- The word `0xFF800000` denotes `-∞`. -/
theorem ofBits_negInf : Ideal.ofBits .f32 0xFF800000#32 = (⊥ : EReal) := by
  simp [Ideal.ofBits, Ideal.ieee]

/-- The reduced index `p` with the coordinate `k` put back on the reduced axis is `(p, k)`. -/
theorem lift_row (h : S128x10000.Reduces [1] S128) (p : Fin 128) (k : Fin 10000) :
    h.lift (ix1 p) k = ix2 p k := by
  funext a
  match a with
  | ⟨0, _⟩ => exact Fin.ext rfl
  | ⟨1, _⟩ => exact Fin.ext rfl

/-- The maximum over axis 1, read at row `p`: the greatest of `-∞` and the row's entries. -/
theorem row_max (v : Vec Ideal S128x10000 .f32) (h : S128x10000.Reduces [1] S128) (hφ : FKind.Formats .f32)
    (hacc : (0xFF800000#32 : BitVec 32) = FKind.maximumf.neutral .f32 hφ) (p : Fin 128) :
    multiReduction (F := Ideal) .maximumf [1] S128 v 0xFF800000#32 h hφ hacc (ix1 p)
      = Cert.RowLoss.maxOver ⊥ (fun k : Fin 10000 => v (ix2 p k)) := by
  refine (Ideal.multiReduction_maximumf_single v _ h hφ hacc (ix1 p)).trans ?_
  unfold Cert.RowLoss.maxOver
  rw [Ideal.ofBits_def, ofBits_negInf]
  congr 1
  funext k
  exact congrArg v (lift_row h p k)

/-- The sum over axis 1, read at row `p`: the sum of the row's entries. -/
theorem row_sum (v : Vec Ideal S128x10000 .f32) (h : S128x10000.Reduces [1] S128) (hφ : FKind.Formats .f32)
    (hacc : (0x00000000#32 : BitVec 32) = FKind.add.neutral .f32 hφ) (p : Fin 128) :
    multiReduction (F := Ideal) .add [1] S128 v 0x00000000#32 h hφ hacc (ix1 p)
      = ∑ k : Fin 10000, v (ix2 p k) := by
  refine (Ideal.multiReduction_add_single v _ h hφ hacc (ix1 p)).trans ?_
  refine Finset.sum_congr rfl fun k _ => ?_
  exact congrArg v (lift_row h p k)

/-- A `[128]` vector cast to `[128, 1]` reads, at `(p, 0)`, the vector at `p`. -/
theorem cast_col {α : Type} (u : S128.Idx → α) (h : S128.ShapeCasts S128x1) (p : Fin 128) :
    shapeCast S128x1 u h (ix2 p (0 : Fin 1)) = u (ix1 p) :=
  shapeCast_apply u h _ _ (by
    rw [Shape.rowMajor_val_two, Shape.rowMajor_val_one]
    show p.val = p.val * 1 + 0
    omega)

/-- A `[128, 1]` column broadcast to `[128, 10000]` reads, at `(p, k)`, the column at `(p, 0)`. -/
theorem bcast_row {α : Type} (w : S128x1.Idx → α) (h : S128x1.Broadcasts S128x10000) (p : Fin 128) (k : Fin 10000) :
    broadcastTo S128x10000 w h (ix2 p k) = w (ix2 p (0 : Fin 1)) := by
  refine broadcastTo_apply w h (ix2 p k) (ix2 p (0 : Fin 1)) fun ax => ?_
  match ax with
  | ⟨0, _⟩ => rfl
  | ⟨1, _⟩ => rfl

/-- A block less its broadcast row maxima, read at `(p, k)`: the row `p` less its maximum, at `k`. -/
theorem shift_apply (v : Vec Ideal S128x10000 .f32) (hr : S128x10000.Reduces [1] S128) (hφ : FKind.Formats .f32)
    (hacc : (0xFF800000#32 : BitVec 32) = FKind.maximumf.neutral .f32 hφ) (hc : S128.ShapeCasts S128x1)
    (hb : S128x1.Broadcasts S128x10000) (p : Fin 128) (k : Fin 10000) :
    subf (F := Ideal) v (broadcastTo S128x10000 (shapeCast S128x1
        (multiReduction (F := Ideal) .maximumf [1] S128 v 0xFF800000#32 hr hφ hacc) hc) hb) (ix2 p k)
      = Cert.RowLoss.shifted (fun k : Fin 10000 => v (ix2 p k)) k := by
  show v (ix2 p k) - broadcastTo S128x10000 (shapeCast S128x1
        (multiReduction (F := Ideal) .maximumf [1] S128 v 0xFF800000#32 hr hφ hacc) hc) hb (ix2 p k) = _
  rw [bcast_row, cast_col, row_max]
  rfl

/-- The logarithm of the row sums of a block's exponentials, cast to a column and read at `(p, 0)`:
    the normaliser of row `p`. -/
theorem lse_apply (w : Vec Ideal S128x10000 .f32) (hr : S128x10000.Reduces [1] S128) (hφ : FKind.Formats .f32)
    (hacc : (0x00000000#32 : BitVec 32) = FKind.add.neutral .f32 hφ) (hc : S128.ShapeCasts S128x1) (p : Fin 128) :
    log (F := Ideal) (shapeCast S128x1
        (multiReduction (F := Ideal) .add [1] S128 (exp (F := Ideal) w) 0x00000000#32 hr hφ hacc) hc) (ix2 p (0 : Fin 1))
      = Cert.RowLoss.logSumExp (fun k : Fin 10000 => w (ix2 p k)) := by
  show Ideal.log (shapeCast S128x1
        (multiReduction (F := Ideal) .add [1] S128 (exp (F := Ideal) w) 0x00000000#32 hr hφ hacc) hc (ix2 p (0 : Fin 1))) = _
  rw [cast_col, row_sum]
  rfl

/-- The maximum over axis 1 cast to a column, read at `(p, 0)`: the greatest of `-∞` and row `p`'s entries. -/
theorem max_col_apply (w : Vec Ideal S128x10000 .f32) (hr : S128x10000.Reduces [1] S128) (hφ : FKind.Formats .f32)
    (hacc : (0xFF800000#32 : BitVec 32) = FKind.maximumf.neutral .f32 hφ) (hc : S128.ShapeCasts S128x1) (p : Fin 128) :
    shapeCast S128x1 (multiReduction (F := Ideal) .maximumf [1] S128 w 0xFF800000#32 hr hφ hacc) hc (ix2 p (0 : Fin 1))
      = Cert.RowLoss.maxOver ⊥ (fun k : Fin 10000 => w (ix2 p k)) := by
  rw [cast_col, row_max]

/-- A block with a column subtracted from and added back to every column, read at `(p, k)`. -/
theorem recentre_apply (a : FVec Ideal S128x10000 .f32) (c : FVec Ideal S128x1 .f32) (hb : S128x1.Broadcasts S128x10000)
    (p : Fin 128) (k : Fin 10000) :
    addf (F := Ideal) (subf (F := Ideal) a (broadcastTo S128x10000 c hb)) (broadcastTo S128x10000 c hb) (ix2 p k)
      = (a (ix2 p k) - c (ix2 p (0 : Fin 1))) + c (ix2 p (0 : Fin 1)) := by
  show (a (ix2 p k) - broadcastTo S128x10000 c hb (ix2 p k)) + broadcastTo S128x10000 c hb (ix2 p k) = _
  rw [bcast_row]

/-- The entries of a block kept where the label is one and replaced by `-∞` elsewhere, read at an index. -/
theorem mask_apply (y a : Vec Ideal S128x10000 .f32) (i : S128x10000.Idx) :
    select (cmpf (F := Ideal) .oeq y (broadcast S128x10000 (Scalar.ofBits (F := Ideal) .f32 0x3F800000#32))) a
        (broadcast S128x10000 (Scalar.ofBits (F := Ideal) .f32 0xFF800000#32)) i
      = if Cert.RowLoss.isTarget (y i) = 1 then a i else ⊥ := by
  show (if Cert.RowLoss.isTarget (y i) = 1 then a i else Ideal.ofBits .f32 0xFF800000#32) = _
  rw [ofBits_negInf]

/-- THE BODY'S VALUE AT ROW `p`: the one-pass loss of the row of scores, the targets being the labels equal to one. -/
theorem pay_row (v0 v17 : Vec Ideal S128x10000 .f32) (p : Fin 128) :
    k0_pay1 (F := Ideal) v0 v17 (ix2 p (0 : Fin 1))
      = Cert.RowLoss.lossOnePass (fun k : Fin 10000 => v0 (ix2 p k))
          (fun k : Fin 10000 => Cert.RowLoss.isTarget (v17 (ix2 p k))) := by
  have hr : S128x10000.Reduces [1] S128 := Cert.KernelIdeal.Gen.reduces_S128x10000_S128
  have hc : S128.ShapeCasts S128x1 := Cert.KernelIdeal.Gen.shapeCasts_S128_S128x1
  have hb : S128x1.Broadcasts S128x10000 := Cert.KernelIdeal.Gen.broadcasts_S128x1_S128x10000
  -- the row of scores
  let x : Fin 10000 → EReal := fun k => v0 (ix2 p k)
  -- the block less its row maxima: at row `p` the shifted row
  let v4 : FVec Ideal S128x10000 .f32 := subf (F := Ideal) v0 (broadcastTo S128x10000 (shapeCast S128x1
    (multiReduction (F := Ideal) .maximumf [1] S128 v0 0xFF800000#32 hr (.inl rfl) rfl) hc) hb)
  have h4 : (fun k : Fin 10000 => v4 (ix2 p k)) = Cert.RowLoss.shifted x :=
    funext fun k => shift_apply v0 hr (.inl rfl) rfl hc hb p k
  -- the column of normalisers: at row `p` the shifted row's
  let v8 : FVec Ideal S128x1 .f32 := log (F := Ideal) (shapeCast S128x1
    (multiReduction (F := Ideal) .add [1] S128 (exp (F := Ideal) v4) 0x00000000#32 hr (.inl rfl) rfl) hc)
  have h8 : v8 (ix2 p (0 : Fin 1)) = Cert.RowLoss.logSumExp (Cert.RowLoss.shifted x) :=
    (lse_apply v4 hr (.inl rfl) rfl hc p).trans (congrArg Cert.RowLoss.logSumExp h4)
  -- the normaliser subtracted and added back: at row `p` the recentred row
  let v12 : FVec Ideal S128x10000 .f32 :=
    addf (F := Ideal) (subf (F := Ideal) v4 (broadcastTo S128x10000 v8 hb)) (broadcastTo S128x10000 v8 hb)
  have h12 : (fun k : Fin 10000 => v12 (ix2 p k)) = Cert.RowLoss.recentred x :=
    funext fun k => by
      refine (recentre_apply v4 v8 hb p k).trans ?_
      rw [h8, congrFun h4 k]
      rfl
  -- the second normaliser
  have h16 : log (F := Ideal) (shapeCast S128x1
      (multiReduction (F := Ideal) .add [1] S128 (exp (F := Ideal) v12) 0x00000000#32 hr (.inl rfl) rfl) hc) (ix2 p (0 : Fin 1))
        = Cert.RowLoss.logSumExp (Cert.RowLoss.recentred x) :=
    (lse_apply v12 hr (.inl rfl) rfl hc p).trans (congrArg Cert.RowLoss.logSumExp h12)
  -- the recentred block kept at the targets, `-∞` elsewhere
  let v21 : FVec Ideal S128x10000 .f32 :=
    select (cmpf (F := Ideal) .oeq v17 (broadcast S128x10000 (Scalar.ofBits (F := Ideal) .f32 0x3F800000#32))) v12
      (broadcast S128x10000 (Scalar.ofBits (F := Ideal) .f32 0xFF800000#32))
  have h21 : (fun k : Fin 10000 => v21 (ix2 p k))
      = fun k : Fin 10000 => if Cert.RowLoss.isTarget (v17 (ix2 p k)) = 1 then Cert.RowLoss.recentred x k else ⊥ :=
    funext fun k => by
      refine (mask_apply v17 v12 (ix2 p k)).trans ?_
      rw [congrFun h12 k]
  -- its row maximum
  have h23 : shapeCast S128x1 (multiReduction (F := Ideal) .maximumf [1] S128 v21 0xFF800000#32 hr (.inl rfl) rfl) hc
        (ix2 p (0 : Fin 1))
      = Cert.RowLoss.maxOver ⊥
          (fun k : Fin 10000 => if Cert.RowLoss.isTarget (v17 (ix2 p k)) = 1 then Cert.RowLoss.recentred x k else ⊥) :=
    (max_col_apply v21 hr (.inl rfl) rfl hc p).trans (congrArg (Cert.RowLoss.maxOver ⊥) h21)
  exact congrArg₂ (fun a b : EReal => a - b) h16 h23

end Cert.KernelIdeal.RowValue

end
-- ==== Proof.KernelValue.lean ====
/-
  The kernel program's result as a function of its two argument arrays.

  The region's grid has 64 points; point `t` stages rows `128 t … 128 t + 127` of the scores and of
  the labels and writes back rows `128 t … 128 t + 127` of a one-column array of 8192 rows.  What it
  writes at row `p` of its block is the one-pass loss of row `128 t + p` (KernelRow.lean), so block `t` of
  the column is block `t` of ONE function of the arguments: `lossCol`, the column of the rows' losses.
  The 64 blocks tile the column (row `r` lies in block `r / 128`), so the column ends holding `lossCol`.
  The four host operations after the region add the column's entries from `0` and divide by the number
  of rows: the result is the mean of the rows' one-pass losses.
-/
import proofs.«143791_j31525059953025_2_alg».proof.Proof.KernelRow
import proofs.«143791_j31525059953025_2_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

/-- The column of the rows' one-pass losses: entry `(r, 0)` is the loss of row `r` of the scores `A`, the
    targets being the entries of row `r` of the labels `B` that equal one. -/
def lossCol (A B : S8192x10000.Idx → EReal) : S8192x1.Idx → EReal := fun i =>
  Cert.RowLoss.lossOnePass (fun k : Fin 10000 => A (ix2 (i 0) k)) (fun k : Fin 10000 => Cert.RowLoss.isTarget (B (ix2 (i 0) k)))

/-- The program's result as a function of the argument arrays: the mean of the rows' one-pass losses. -/
def meanLoss (A B : S8192x10000.Idx → EReal) : S_.Idx → EReal := fun _ =>
  Cert.RowLoss.meanOf (fun r : Fin 8192 =>
    Cert.RowLoss.lossOnePass (fun k : Fin 10000 => A (ix2 r k)) (fun k : Fin 10000 => Cert.RowLoss.isTarget (B (ix2 r k))))

theorem hz : (![0, 0] : Fin 2 → Nat) = fun _ => 0 := funext fun a => by fin_cases a <;> rfl

/-- The index maps, decided over the grid: the three windows move together along the rows and stay at column block 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 63 :=
  (by decide +kernel : ∀ t : Fin grid0.N, _)

/-- Every row block is some point's. -/
theorem idx_onto : ∀ q : Fin 64, ∃ t : Fin cfg0.N, win0_2.index t = ![q.val, 0] :=
  (by decide +kernel : ∀ q : Fin 64, ∃ t : Fin grid0.N, win0_2.index t = ![q.val, 0])

/-- Row `p` of point `t`'s block of the scores is row `128·(row-block index) + p` of the scores. -/
theorem iblk0_at (c : Dev nD) (t : Fin cfg0.N) (p : Fin 128) (k : Fin 10000) (r : Fin 8192)
    (hr : r.val = win0_2.index t (0 : Fin 2) * 128 + p.val) :
    (iblk m c 0 t : S128x10000.Idx → EReal) (ix2 p k) = (V m c main_arg0 : S8192x10000.Idx → EReal) (ix2 r k) := by
  obtain ⟨e0, e1, e2, e3, e4, e5⟩ := idx_facts t
  unfold iblk
  rw [View.read_apply]
  show V m c main_arg0 _ = V m c main_arg0 _
  congr 1
  funext a
  apply Fin.ext
  match a with
  | ⟨0, _⟩ =>
    show win0_0.index t (0 : Fin 2) * 128 + 1 * p.val = r.val
    omega
  | ⟨1, _⟩ =>
    show win0_0.index t (1 : Fin 2) * 10000 + 1 * k.val = k.val
    omega

/-- The same for the labels. -/
theorem iblk1_at (c : Dev nD) (t : Fin cfg0.N) (p : Fin 128) (k : Fin 10000) (r : Fin 8192)
    (hr : r.val = win0_2.index t (0 : Fin 2) * 128 + p.val) :
    (iblk m c 1 t : S128x10000.Idx → EReal) (ix2 p k) = (V m c main_arg1 : S8192x10000.Idx → EReal) (ix2 r k) := by
  obtain ⟨e0, e1, e2, e3, e4, e5⟩ := idx_facts t
  unfold iblk
  rw [View.read_apply]
  show V m c main_arg1 _ = V m c main_arg1 _
  congr 1
  funext a
  apply Fin.ext
  match a with
  | ⟨0, _⟩ =>
    show win0_1.index t (0 : Fin 2) * 128 + 1 * p.val = r.val
    omega
  | ⟨1, _⟩ =>
    show win0_1.index t (1 : Fin 2) * 10000 + 1 * k.val = k.val
    omega

/-- WHAT POINT `t` WRITES BACK is block `t` of the column of losses of the argument arrays. -/
theorem flushed_eq (c : Dev nD) (t : Fin cfg0.N) :
    (dats m 0 c).flushed 2 t
      = ((cfg0.win 2).blk t).view.read (Elt Ideal) (lossCol (V m c main_arg0) (V m c main_arg1)) := by
  show (cfg0.win 2).cut (grid0.coords t) ((dats m 0 c).after 2 t) = _
  rw [after0_2]
  unfold out0_2
  rw [View.canon_unit_zero hz]
  simp only [View.ld_unit_zero (S := S128x10000) hz]
  funext j
  show k0_pay1 (F := Ideal) (iblk m c 0 t) (iblk m c 1 t) j
    = lossCol (V m c main_arg0) (V m c main_arg1) (((cfg0.win 2).blk t).view.emb j)
  obtain ⟨p, q, rfl⟩ : ∃ (p : Fin 128) (q : Fin 1), j = ix2 p q := ⟨j 0, j 1, eq_ix2 j⟩
  obtain rfl : q = 0 := Subsingleton.elim _ _
  refine (Cert.KernelIdeal.RowValue.pay_row (iblk m c 0 t) (iblk m c 1 t) p).trans ?_
  unfold lossCol
  have hr : ((((cfg0.win 2).blk t).view.emb (ix2 p (0 : Fin 1))) 0 : Fin 8192).val = win0_2.index t (0 : Fin 2) * 128 + p.val := by
    show win0_2.index t (0 : Fin 2) * 128 + 1 * p.val = win0_2.index t (0 : Fin 2) * 128 + p.val
    omega
  exact congrArg₂ Cert.RowLoss.lossOnePass
    (funext fun k => iblk0_at m c t p k _ hr)
    (funext fun k => congrArg Cert.RowLoss.isTarget (iblk1_at m c t p k _ hr))

/-- An index of the column is in point `t`'s block iff each coordinate is in the block's range on its axis. -/
theorem mem_blk (t : Fin cfg0.N) (i : S8192x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v0).slice (win0_2.rect t)).set ↔ _
  rw [View.set_slice_whole, Rect.mem_set_unit]
  exact Iff.rfl

/-- The blocks tile the column: row `r` is in the block of the point whose row-block index is `r / 128`. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1 ≤ (i 1).val ∧ (i 1).val < win0_2.index t (1 : Fin 2) * 1 + 1; omega

/-- THE COLUMN after the region: the losses of the rows of the argument arrays. -/
theorem final_col (c : Dev nD) :
    (dats m 0 c).arrAt 2 cfg0.N = lossCol (m ((c : Thread nD τ).loc main_arg0)) (m ((c : Thread nD τ).loc main_arg1)) :=
  (dats m 0 c).arrAt_eq_of_cover 2 (lossCol (V m c main_arg0) (V m c main_arg1)) (fun t _ => flushed_eq m c t) cover

/-! ## The lines after the region, and the run -/

/-- The result buffer is none of the region's arrays. -/
theorem result_rest : main_v2 ∈ Pipeline.restRefs sig (cfgs 0).spec :=
  Pipeline.mem_restRefs_of main_v2 rfl (fun w => by fin_cases w <;> decide)

/-- The column after the region, as the lines after the region find it. -/
theorem col_after (c : Dev nD) :
    Pipeline.withArrays (cfgs 0).spec c (V0 m c) (fun w => (dats m 0 c).arrAt w (cfgs 0).N) (Proc.devRef .tc main_v0)
      = lossCol (m ((c.tc : Thread nD τ).loc main_arg0)) (m ((c.tc : Thread nD τ).loc main_arg1)) :=
  (Pipeline.withArrays_arr spec0 launch0.win.arr_inj c _ _ 2).trans (final_col m c)

/-- The sum of the column's entries from `0`, divided by the number of rows, is the mean of the rows' losses. -/
theorem mean_of_col (A B : S8192x10000.Idx → EReal) :
    Host.divf (F := Ideal) (Host.reduceAdd (F := Ideal) (lossCol A B) (constant (F := Ideal) S_ .f32 0x00000000#32) reducesTo_S8192x1_S_d0_1 h_S_)
        (constant (F := Ideal) S_ .f32 0x46000000#32)
      = meanLoss A B := by
  funext i
  show Ideal.div (Host.reduceAdd (F := Ideal) (lossCol A B) (constant (F := Ideal) S_ .f32 0x00000000#32) reducesTo_S8192x1_S_d0_1 h_S_ i)
      (Ideal.ofBits .f32 0x46000000#32) = _
  unfold meanLoss Cert.RowLoss.meanOf
  refine congrArg (fun t => Ideal.div t (Ideal.ofBits .f32 0x46000000#32)) ?_
  simp only [Host.reduceAdd, Ideal.hostReduceAdd_def]
  rw [Ideal.hostReduceAdd_total reducesTo_S8192x1_S_d0_1 (fun b => by fin_cases b) _ _ i]
  show Ideal.ofBits .f32 0x00000000#32 + _ = _
  rw [Ideal.ofBits_zero_f32, sum_idx2]
  refine congrArg (0 + ·) (Finset.sum_congr rfl fun r _ => ?_)
  rw [Fin.sum_univ_one]
  rfl

/-- The lines after the region leave, in the result buffer, the mean of the rows' one-pass losses of the argument arrays. -/
theorem tail_eq (c : Dev nD) :
    Pipeline.afterTail₀ cfgs (dats m) 0 (V0 m) [hostOps1] c main_v2
      = meanLoss (m ((c.tc : Thread nD τ).loc main_arg0)) (m ((c.tc : Thread nD τ).loc main_arg1)) := by
  unfold Pipeline.afterTail₀
  show StableHlo.after hostOps1 _ (Proc.devRef .tc main_v2) = _
  after_results
  rw [col_after m c]
  exact mean_of_col _ _

/-- THE RUN, READ: every weakly fair execution of the kernel program terminates with its result at the mean of the
    rows' one-pass losses of the argument arrays, and the argument arrays unchanged. -/
theorem run : θ_run defs (onTc (τ := τ) (main (F := Ideal))) ⟨m, fun _ => 0, ρ⟩ fun r => ∀ c : Dev nD,
      r.2.mem ((c.tc : Thread nD τ).loc main_v2)
          = meanLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.RefTerm.lean ====
/-
  The host program's result as one term of its two argument arrays: log-softmax along the rows applied
  twice, the entries that are not targets replaced by `-∞`, the rows' maxima negated, summed and divided
  by the number of rows.  Each stage is spelt with the host operation the program uses for it, so that
  the program's run ends at this term and the term can then be read row by row.
-/
import proofs.«143791_j31525059953025_2_alg».proof.Proof.Gen.ReferenceIdeal

noncomputable section

namespace Cert.ReferenceIdeal.Term

open Cert.ReferenceIdeal Cert.ReferenceIdeal.Gen Idealize.ShloMosaic

variable {F : FTy → Type} [FloatOps F]

/-- Each row's maximum (from `-∞`, joined once more with `-∞`), spread back over the row. -/
def rowMaxB (x : FVec F S8192x10000 .f32) : FVec F S8192x10000 .f32 :=
  broadcastInDim S8192x10000 ![0, 1] bcast_S8192x1_S8192x10000_0_1
    (broadcastInDim S8192x1 ![0] bcast_S8192_S8192x1_0
      (maximumf (broadcastInDim S8192 ![] bcast_S_S8192 (constant S_ .f32 0xFF800000#32))
        (Host.reduce FloatOps.maximumf x (constant S_ .f32 0xFF800000#32) reducesTo_S8192x10000_S8192_d1 h_S_)))

/-- Log-softmax along the rows: the row less its maximum, less the logarithm of the sum of the exponentials of that. -/
def logSoftmax (x : FVec F S8192x10000 .f32) : FVec F S8192x10000 .f32 :=
  subf (subf x (rowMaxB x))
    (broadcastInDim S8192x10000 ![0, 1] bcast_S8192x1_S8192x10000_0_1
      (Host.log (broadcastInDim S8192x1 ![0] bcast_S8192_S8192x1_0
        (Host.reduceAdd (Host.exp (subf x (rowMaxB x))) (constant S_ .f32 0x00000000#32) reducesTo_S8192x10000_S8192_d1 h_S_))))

/-- The rows' losses: minus the maximum over the targets of the twice normalised row. -/
def rowLosses (A B : FVec F S8192x10000 .f32) : FVec F S8192 .f32 :=
  Host.negf
    (Host.reduce FloatOps.maximumf
      (select (cmpf .oeq B (broadcastInDim S8192x10000 ![] bcast_S_S8192x10000 (constant S_ .f32 0x3F800000#32)))
        (logSoftmax (logSoftmax A))
        (broadcastInDim S8192x10000 ![] bcast_S_S8192x10000 (constant S_ .f32 0xFF800000#32)))
      (constant S_ .f32 0xFF800000#32) reducesTo_S8192x10000_S8192_d1 h_S_)

/-- The program's result: the mean of the rows' losses. -/
def out (A B : FVec F S8192x10000 .f32) : FVec F S_ .f32 :=
  Host.divf (Host.reduceAdd (rowLosses A B) (constant S_ .f32 0x00000000#32) reducesTo_S8192_S_d0 h_S_)
    (constant S_ .f32 0x46000000#32)

end Cert.ReferenceIdeal.Term

end
-- ==== Proof.RefRun.lean ====
/-
  The host program's run, read back.  Its @main is a straight line of 43 operations: two calls of
  log-softmax (15 operations each) and a tail of 13 (the target mask, the masked maximum of each row,
  its negation, the sum and the division).  The contents of the device's buffers after the line are the
  fold of the operations' results; the fold is taken one stretch at a time, over an arbitrary valuation
  before the stretch, so that each stretch's result is a short term: a stretch's output is the stage
  function of RefTerm.lean applied to the buffers it reads, and the buffers it does not write are kept.
  Composed, the result buffer ends at `Term.out` of the two argument arrays, which end unchanged.
-/
import proofs.«143791_j31525059953025_2_alg».proof.Proof.RefTerm
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => after_append l l₂ (op.result V)

/-- The scores, as a typed reference. -/
abbrev scores : TRef sig ⟨S8192x10000, .f32⟩ := TRef.of main_arg0
/-- The scores normalised once, as a typed reference. -/
abbrev once : TRef sig ⟨S8192x10000, .f32⟩ := TRef.of main_v0

/-- The first call of log-softmax: its 15 operations, on the scores. -/
abbrev ops1 : List (HloOp τ sig (Elt F)) :=
  [ TRef.nullary main_call0.cst (constant S_ .f32 0xFF800000#32),
    TRef.binary scores main_call0.cst main_call0.v0 (fun x v => Host.reduce FloatOps.maximumf x v reducesTo_S8192x10000_S8192_d1 h_S_),
    TRef.nullary main_call0.cst_0 (constant S_ .f32 0xFF800000#32),
    TRef.unary main_call0.cst_0 main_call0.v1 (broadcastInDim S8192 ![] bcast_S_S8192),
    TRef.binary main_call0.v1 main_call0.v0 main_call0.v2 maximumf,
    TRef.unary main_call0.v2 main_call0.v3 (broadcastInDim S8192x1 ![0] bcast_S8192_S8192x1_0),
    TRef.unary main_call0.v3 main_call0.v4 (broadcastInDim S8192x10000 ![0, 1] bcast_S8192x1_S8192x10000_0_1),
    TRef.binary scores main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S8192x10000_S8192_d1 h_S_),
    TRef.unary main_call0.v7 main_call0.v8 (broadcastInDim S8192x1 ![0] bcast_S8192_S8192x1_0),
    TRef.unary main_call0.v8 main_call0.v9 Host.log,
    TRef.unary main_call0.v9 main_call0.v10 (broadcastInDim S8192x10000 ![0, 1] bcast_S8192x1_S8192x10000_0_1),
    TRef.binary main_call0.v5 main_call0.v10 main_call0.v11 subf ]

/-- The second call: the same 15 operations, on the first call's result. -/
abbrev ops2 : List (HloOp τ sig (Elt F)) :=
  [ TRef.nullary main_call1.cst (constant S_ .f32 0xFF800000#32),
    TRef.binary once main_call1.cst main_call1.v0 (fun x v => Host.reduce FloatOps.maximumf x v reducesTo_S8192x10000_S8192_d1 h_S_),
    TRef.nullary main_call1.cst_0 (constant S_ .f32 0xFF800000#32),
    TRef.unary main_call1.cst_0 main_call1.v1 (broadcastInDim S8192 ![] bcast_S_S8192),
    TRef.binary main_call1.v1 main_call1.v0 main_call1.v2 maximumf,
    TRef.unary main_call1.v2 main_call1.v3 (broadcastInDim S8192x1 ![0] bcast_S8192_S8192x1_0),
    TRef.unary main_call1.v3 main_call1.v4 (broadcastInDim S8192x10000 ![0, 1] bcast_S8192x1_S8192x10000_0_1),
    TRef.binary once main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S8192x10000_S8192_d1 h_S_),
    TRef.unary main_call1.v7 main_call1.v8 (broadcastInDim S8192x1 ![0] bcast_S8192_S8192x1_0),
    TRef.unary main_call1.v8 main_call1.v9 Host.log,
    TRef.unary main_call1.v9 main_call1.v10 (broadcastInDim S8192x10000 ![0, 1] bcast_S8192x1_S8192x10000_0_1),
    TRef.binary main_call1.v5 main_call1.v10 main_call1.v11 subf ]

/-- The tail: the target mask, the masked rows' maxima, their negation, the sum and the division. -/
abbrev ops3 : List (HloOp τ sig (Elt F)) :=
  [
    nullary main_cst (constant S_ .f32 0x3F800000#32),
    unary main_cst main_v2 (broadcastInDim S8192x10000 ![] bcast_S_S8192x10000 : (⟨S_, .f32⟩ : BufTy).Contents (Elt F) → (⟨S8192x10000, .f32⟩ : BufTy).Contents (Elt F)),
    binary main_arg1 main_v2 main_v3 (cmpf .oeq : (⟨S8192x10000, .f32⟩ : BufTy).Contents (Elt F) → (⟨S8192x10000, .f32⟩ : BufTy).Contents (Elt F) → (⟨S8192x10000, .i1⟩ : BufTy).Contents (Elt F)),
    nullary main_cst_0 (constant S_ .f32 0xFF800000#32),
    TRef.unary (TRef.of (T := ⟨S_, .f32⟩) main_cst_0) main_call2.v0 (broadcastInDim S8192x10000 ![] bcast_S_S8192x10000),
    TRef.ternary (TRef.of (T := ⟨S8192x10000, .i1⟩) main_v3) (TRef.of (T := ⟨S8192x10000, .f32⟩) main_v1) main_call2.v0 main_call2.v1 select,
    nullary main_cst_1 (constant S_ .f32 0xFF800000#32),
    binary main_v4 main_cst_1 main_v5 ((fun x v => Host.reduce FloatOps.maximumf x v reducesTo_S8192x10000_S8192_d1 h_S_) : (⟨S8192x10000, .f32⟩ : BufTy).Contents (Elt F) → (⟨S_, .f32⟩ : BufTy).Contents (Elt F) → (⟨S8192, .f32⟩ : BufTy).Contents (Elt F)),
    unary main_v5 main_v6 (Host.negf : (⟨S8192, .f32⟩ : BufTy).Contents (Elt F) → (⟨S8192, .f32⟩ : BufTy).Contents (Elt F)),
    nullary main_cst_2 (constant S_ .f32 0x00000000#32),
    binary main_v6 main_cst_2 main_v7 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_3 (constant S_ .f32 0x46000000#32),
    binary main_v7 main_cst_3 main_v8 (Host.divf : (⟨S_, .f32⟩ : BufTy).Contents (Elt F) → (⟨S_, .f32⟩ : BufTy).Contents (Elt F) → (⟨S_, .f32⟩ : BufTy).Contents (Elt F)) ]

/-- @main's 43 operations, in order (a called function's operations stand in its call's place). -/
abbrev ops : List (HloOp τ sig (Elt F)) :=
  [ TRef.nullary main_call0.cst (constant S_ .f32 0xFF800000#32),
    TRef.binary scores main_call0.cst main_call0.v0 (fun x v => Host.reduce FloatOps.maximumf x v reducesTo_S8192x10000_S8192_d1 h_S_),
    TRef.nullary main_call0.cst_0 (constant S_ .f32 0xFF800000#32),
    TRef.unary main_call0.cst_0 main_call0.v1 (broadcastInDim S8192 ![] bcast_S_S8192),
    TRef.binary main_call0.v1 main_call0.v0 main_call0.v2 maximumf,
    TRef.unary main_call0.v2 main_call0.v3 (broadcastInDim S8192x1 ![0] bcast_S8192_S8192x1_0),
    TRef.unary main_call0.v3 main_call0.v4 (broadcastInDim S8192x10000 ![0, 1] bcast_S8192x1_S8192x10000_0_1),
    TRef.binary scores main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S8192x10000_S8192_d1 h_S_),
    TRef.unary main_call0.v7 main_call0.v8 (broadcastInDim S8192x1 ![0] bcast_S8192_S8192x1_0),
    TRef.unary main_call0.v8 main_call0.v9 Host.log,
    TRef.unary main_call0.v9 main_call0.v10 (broadcastInDim S8192x10000 ![0, 1] bcast_S8192x1_S8192x10000_0_1),
    TRef.binary main_call0.v5 main_call0.v10 main_call0.v11 subf,
    TRef.nullary main_call1.cst (constant S_ .f32 0xFF800000#32),
    TRef.binary once main_call1.cst main_call1.v0 (fun x v => Host.reduce FloatOps.maximumf x v reducesTo_S8192x10000_S8192_d1 h_S_),
    TRef.nullary main_call1.cst_0 (constant S_ .f32 0xFF800000#32),
    TRef.unary main_call1.cst_0 main_call1.v1 (broadcastInDim S8192 ![] bcast_S_S8192),
    TRef.binary main_call1.v1 main_call1.v0 main_call1.v2 maximumf,
    TRef.unary main_call1.v2 main_call1.v3 (broadcastInDim S8192x1 ![0] bcast_S8192_S8192x1_0),
    TRef.unary main_call1.v3 main_call1.v4 (broadcastInDim S8192x10000 ![0, 1] bcast_S8192x1_S8192x10000_0_1),
    TRef.binary once main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S8192x10000_S8192_d1 h_S_),
    TRef.unary main_call1.v7 main_call1.v8 (broadcastInDim S8192x1 ![0] bcast_S8192_S8192x1_0),
    TRef.unary main_call1.v8 main_call1.v9 Host.log,
    TRef.unary main_call1.v9 main_call1.v10 (broadcastInDim S8192x10000 ![0, 1] bcast_S8192x1_S8192x10000_0_1),
    TRef.binary main_call1.v5 main_call1.v10 main_call1.v11 subf,
    nullary main_cst (constant S_ .f32 0x3F800000#32),
    unary main_cst main_v2 (broadcastInDim S8192x10000 ![] bcast_S_S8192x10000 : (⟨S_, .f32⟩ : BufTy).Contents (Elt F) → (⟨S8192x10000, .f32⟩ : BufTy).Contents (Elt F)),
    binary main_arg1 main_v2 main_v3 (cmpf .oeq : (⟨S8192x10000, .f32⟩ : BufTy).Contents (Elt F) → (⟨S8192x10000, .f32⟩ : BufTy).Contents (Elt F) → (⟨S8192x10000, .i1⟩ : BufTy).Contents (Elt F)),
    nullary main_cst_0 (constant S_ .f32 0xFF800000#32),
    TRef.unary (TRef.of (T := ⟨S_, .f32⟩) main_cst_0) main_call2.v0 (broadcastInDim S8192x10000 ![] bcast_S_S8192x10000),
    TRef.ternary (TRef.of (T := ⟨S8192x10000, .i1⟩) main_v3) (TRef.of (T := ⟨S8192x10000, .f32⟩) main_v1) main_call2.v0 main_call2.v1 select,
    nullary main_cst_1 (constant S_ .f32 0xFF800000#32),
    binary main_v4 main_cst_1 main_v5 ((fun x v => Host.reduce FloatOps.maximumf x v reducesTo_S8192x10000_S8192_d1 h_S_) : (⟨S8192x10000, .f32⟩ : BufTy).Contents (Elt F) → (⟨S_, .f32⟩ : BufTy).Contents (Elt F) → (⟨S8192, .f32⟩ : BufTy).Contents (Elt F)),
    unary main_v5 main_v6 (Host.negf : (⟨S8192, .f32⟩ : BufTy).Contents (Elt F) → (⟨S8192, .f32⟩ : BufTy).Contents (Elt F)),
    nullary main_cst_2 (constant S_ .f32 0x00000000#32),
    binary main_v6 main_cst_2 main_v7 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_3 (constant S_ .f32 0x46000000#32),
    binary main_v7 main_cst_3 main_v8 (Host.divf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = ops1 ++ (ops2 ++ ops3) := rfl

/-! ## One stretch at a time -/

set_option maxRecDepth 8192 in
/-- After the first call its result buffer holds the log-softmax of the scores as they were before it. -/
theorem seg1_out (V : Valuation τ sig (Elt F)) :
    after ops1 V (main_v0 : DevRef τ sig) = Term.logSoftmax (V (main_arg0 : DevRef τ sig)) := by
  simp (disch := decide) only [after_cons, after_nil,
      nullary_result', unary_result', binary_result', ternary_result',
      nullary_result_ne', unary_result_ne', binary_result_ne', ternary_result_ne', cast_cast, cast_eq]
  rfl
set_option maxRecDepth 8192 in
theorem seg1_scores (V : Valuation τ sig (Elt F)) : after ops1 V (main_arg0 : DevRef τ sig) = V (main_arg0 : DevRef τ sig) := by
  simp (disch := decide) only [after_cons, after_nil,
      nullary_result', unary_result', binary_result', ternary_result',
      nullary_result_ne', unary_result_ne', binary_result_ne', ternary_result_ne', cast_cast, cast_eq]
set_option maxRecDepth 8192 in
theorem seg1_labels (V : Valuation τ sig (Elt F)) : after ops1 V (main_arg1 : DevRef τ sig) = V (main_arg1 : DevRef τ sig) := by
  simp (disch := decide) only [after_cons, after_nil,
      nullary_result', unary_result', binary_result', ternary_result',
      nullary_result_ne', unary_result_ne', binary_result_ne', ternary_result_ne', cast_cast, cast_eq]

set_option maxRecDepth 8192 in
/-- After the second call its result buffer holds the log-softmax of the first call's result. -/
theorem seg2_out (V : Valuation τ sig (Elt F)) :
    after ops2 V (main_v1 : DevRef τ sig) = Term.logSoftmax (V (main_v0 : DevRef τ sig)) := by
  simp (disch := decide) only [after_cons, after_nil,
      nullary_result', unary_result', binary_result', ternary_result',
      nullary_result_ne', unary_result_ne', binary_result_ne', ternary_result_ne', cast_cast, cast_eq]
  rfl
set_option maxRecDepth 8192 in
theorem seg2_scores (V : Valuation τ sig (Elt F)) : after ops2 V (main_arg0 : DevRef τ sig) = V (main_arg0 : DevRef τ sig) := by
  simp (disch := decide) only [after_cons, after_nil,
      nullary_result', unary_result', binary_result', ternary_result',
      nullary_result_ne', unary_result_ne', binary_result_ne', ternary_result_ne', cast_cast, cast_eq]
set_option maxRecDepth 8192 in
theorem seg2_labels (V : Valuation τ sig (Elt F)) : after ops2 V (main_arg1 : DevRef τ sig) = V (main_arg1 : DevRef τ sig) := by
  simp (disch := decide) only [after_cons, after_nil,
      nullary_result', unary_result', binary_result', ternary_result',
      nullary_result_ne', unary_result_ne', binary_result_ne', ternary_result_ne', cast_cast, cast_eq]

/-- The tail as a function of the twice normalised scores and the labels. -/
def tailOf (o2 B : FVec F S8192x10000 .f32) : FVec F S_ .f32 :=
  Host.divf
    (Host.reduceAdd
      (Host.negf
        (Host.reduce FloatOps.maximumf
          (select (cmpf .oeq B (broadcastInDim S8192x10000 ![] bcast_S_S8192x10000 (constant S_ .f32 0x3F800000#32)))
            o2 (broadcastInDim S8192x10000 ![] bcast_S_S8192x10000 (constant S_ .f32 0xFF800000#32)))
          (constant S_ .f32 0xFF800000#32) reducesTo_S8192x10000_S8192_d1 h_S_))
      (constant S_ .f32 0x00000000#32) reducesTo_S8192_S_d0 h_S_)
    (constant S_ .f32 0x46000000#32)

theorem out_eq_tailOf (A B : FVec F S8192x10000 .f32) :
    Term.out A B = tailOf (Term.logSoftmax (Term.logSoftmax A)) B := rfl

set_option maxRecDepth 8192 in
/-- After the tail the result buffer holds the tail's function of the second call's result and the labels. -/
theorem seg3_out (V : Valuation τ sig (Elt F)) :
    after ops3 V (main_v8 : DevRef τ sig) = tailOf (V (main_v1 : DevRef τ sig)) (V (main_arg1 : DevRef τ sig)) := by
  simp (disch := decide) only [after_cons, after_nil,
      nullary_result', unary_result', binary_result', ternary_result',
      nullary_result_ne', unary_result_ne', binary_result_ne', ternary_result_ne', cast_cast, cast_eq]
  rfl
set_option maxRecDepth 8192 in
theorem seg3_scores (V : Valuation τ sig (Elt F)) : after ops3 V (main_arg0 : DevRef τ sig) = V (main_arg0 : DevRef τ sig) := by
  simp (disch := decide) only [after_cons, after_nil,
      nullary_result', unary_result', binary_result', ternary_result',
      nullary_result_ne', unary_result_ne', binary_result_ne', ternary_result_ne', cast_cast, cast_eq]
set_option maxRecDepth 8192 in
theorem seg3_labels (V : Valuation τ sig (Elt F)) : after ops3 V (main_arg1 : DevRef τ sig) = V (main_arg1 : DevRef τ sig) := by
  simp (disch := decide) only [after_cons, after_nil,
      nullary_result', unary_result', binary_result', ternary_result',
      nullary_result_ne', unary_result_ne', binary_result_ne', ternary_result_ne', cast_cast, cast_eq]

/-! ## The whole line -/

/-- The result buffer after the line: `Term.out` of the argument arrays as they were before it. -/
theorem out_eq (V : Valuation τ sig (Elt F)) :
    after ops V (main_v8 : DevRef τ sig) = Term.out (V (main_arg0 : DevRef τ sig)) (V (main_arg1 : DevRef τ sig)) := by
  rw [ops_split, after_append, after_append, seg3_out, seg2_out, seg2_labels, seg1_out, seg1_labels, out_eq_tailOf]
theorem scores_eq (V : Valuation τ sig (Elt F)) : after ops V (main_arg0 : DevRef τ sig) = V (main_arg0 : DevRef τ sig) := by
  rw [ops_split, after_append, after_append, seg3_scores, seg2_scores, seg1_scores]
theorem labels_eq (V : Valuation τ sig (Elt F)) : after ops V (main_arg1 : DevRef τ sig) = V (main_arg1 : DevRef τ sig) := by
  rw [ops_split, after_append, after_append, seg3_labels, seg2_labels, seg1_labels]

set_option maxRecDepth 8192 in
/-- @main is that straight line: the called functions' bodies stand at their calls. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., ternary_bufs_sub .., nullary_bufs_sub .., binary_bufs_sub .., unary_bufs_sub .., nullary_bufs_sub .., binary_bufs_sub .., nullary_bufs_sub .., binary_bufs_sub ..⟩

/-- On every device, for any float values, from any memory with zero counters: every weakly fair execution of
    @main terminates with the result at `Term.out` of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = Term.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v8).trans (out_eq _), (h c main_arg0).trans (scores_eq _),
      (h c main_arg1).trans (labels_eq _)⟩)
    (run_seq scopedRefs_eq scopedSems_eq defs main (fun _ => ops) main_eq (fun _ => ops_sub) m ρ)

end Cert.ReferenceIdeal.HostRun

end
-- ==== Proof.RefRead.lean ====
/-
  The host program's result, read at an index.  Each stage of the term is read at explicit
  coordinates: a row's maximum spread over the row, log-softmax along a row, a row's loss, and the mean
  of the rows' losses.  A broadcast reads its operand at the coordinates it keeps; a reduction over the
  second axis at row r is a fold or a sum over the entries (r, j) of that row; the reduction of the
  vector of losses into a scalar is the sum over every row.  The result is the row-level
  specification's two-pass loss of each row, averaged.
-/
import proofs.«143791_j31525059953025_2_alg».proof.Proof.RowSpec
import proofs.«143791_j31525059953025_2_alg».proof.Proof.RefTerm
import Idealize.ShloMosaic.Lib.ValueIdx
import Idealize.ShloMosaic.Lib.Pipeline.Value
import Idealize.ShloMosaic.PureOps.Ideal.Laws

noncomputable section

namespace Cert.ReferenceIdeal.TermRead

open Cert.ReferenceIdeal Cert.ReferenceIdeal.Gen Idealize.ShloMosaic Idealize.ShloMosaic.ValueIdx

/-! ## Literals and the elementwise host operations at an index -/

/-- The word 0xFF800000 denotes -∞. -/
theorem negInf_eq : Ideal.ofBits .f32 0xFF800000#32 = (⊥ : EReal) := by
  simp [Ideal.ofBits, Ideal.ieee]

theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl
theorem hostNegf_apply {s : Shape} (v : FVec Ideal s .f32) (i : s.Idx) : Host.negf v i = -(v i) := rfl
theorem hostDivf_apply {s : Shape} (a b : FVec Ideal s .f32) (i : s.Idx) : Host.divf a b i = Ideal.div (a i) (b i) := rfl

/-! ## The broadcasts at an index -/

/-- A column spread over the rows' entries reads the column at the row. -/
theorem bcast_col_apply {α : Type} (y : S8192x1.Idx → α) (r : Fin 8192) (k : Fin 10000) :
    broadcastInDim S8192x10000 ![0, 1] bcast_S8192x1_S8192x10000_0_1 y (ix2 r k) = y (ix2 r (0 : Fin 1)) :=
  broadcastInDim_apply _ bcast_S8192x1_S8192x10000_0_1 y (ix2 r k) (ix2 r (0 : Fin 1)) (fun a => match a with
    | ⟨0, _⟩ => by show r.val = if (8192 : Nat) = 1 then 0 else r.val; rw [if_neg (by decide)]
    | ⟨1, _⟩ => by show 0 = if (1 : Nat) = 1 then 0 else k.val; rw [if_pos rfl])

/-- A vector made a column reads the vector at the row. -/
theorem bcast_row_apply {α : Type} (y : S8192.Idx → α) (r : Fin 8192) (c : Fin 1) :
    broadcastInDim S8192x1 ![0] bcast_S8192_S8192x1_0 y (ix2 r c) = y (ix1 r) :=
  broadcastInDim_apply _ bcast_S8192_S8192x1_0 y (ix2 r c) (ix1 r) (fun a => match a with
    | ⟨0, _⟩ => by show r.val = if (8192 : Nat) = 1 then 0 else r.val; rw [if_neg (by decide)])

/-- A scalar spread over a vector reads the scalar. -/
theorem bcast_scalar_vec_apply {α : Type} (y : S_.Idx → α) (i : S8192.Idx) :
    broadcastInDim S8192 ![] bcast_S_S8192 y i = y ix0 :=
  broadcastInDim_apply _ bcast_S_S8192 y i ix0 (fun a => a.elim0)

/-- A scalar spread over the array reads the scalar. -/
theorem bcast_scalar_mat_apply {α : Type} (y : S_.Idx → α) (i : S8192x10000.Idx) :
    broadcastInDim S8192x10000 ![] bcast_S_S8192x10000 y i = y ix0 :=
  broadcastInDim_apply _ bcast_S_S8192x10000 y i ix0 (fun a => a.elim0)

/-! ## The reductions at an index -/

theorem red1 : S8192x10000.Reduces [1] S8192 := by decide

/-- Row r with the entry's position k put back is (r, k). -/
theorem lift_row (h : S8192x10000.Reduces [1] S8192) (r : Fin 8192) (k : Fin 10000) :
    h.lift (ix1 r) k = ix2 r k := by
  funext c; apply Fin.ext
  match c with
  | ⟨0, _⟩ => rfl
  | ⟨1, _⟩ => rfl

/-- A vector's indices are the values of its one coordinate. -/
def idxEquiv1 {n : Nat} : (⟨1, ![n]⟩ : Shape).Idx ≃ Fin n where
  toFun i := i 0
  invFun r := ix1 r
  left_inv i := (eq_ix1 i).symm
  right_inv _ := rfl

/-- So a sum over a vector's indices is the sum over the coordinate. -/
theorem sum_idx1 {n : Nat} (y : (⟨1, ![n]⟩ : Shape).Idx → EReal) : ∑ i, y i = ∑ r : Fin n, y (ix1 r) :=
  (Equiv.sum_comp (idxEquiv1 (n := n)).symm y).symm

/-- From -∞ the maximum-reduction along the rows, at row r, is the greatest of -∞ and the row's entries. -/
theorem reduceMax_row (x : FVec Ideal S8192x10000 .f32) (r : Fin 8192) :
    Host.reduce FloatOps.maximumf x (constant (F := Ideal) S_ .f32 0xFF800000#32) reducesTo_S8192x10000_S8192_d1 h_S_ (ix1 r)
      = Cert.RowLoss.maxOver ⊥ (fun j : Fin 10000 => x (ix2 r j)) := by
  rw [Host.reduce_eq_fold_single FloatOps.maximumf x _ reducesTo_S8192x10000_S8192_d1 red1 h_S_]
  have hf : (x ∘ red1.lift (ix1 r)) = fun k : Fin 10000 => x (ix2 r k) := funext fun k => congrArg x (lift_row red1 r k)
  unfold Cert.RowLoss.maxOver
  refine Eq.trans (congrArg (fun f => Finset.fold max (Ideal.ofBits .f32 0xFF800000#32) f (Finset.univ : Finset (Fin 10000))) hf) ?_
  rw [negInf_eq]

/-- From 0 the sum-reduction along the rows, at row r, is 0 plus the sum of the row's entries. -/
theorem reduceAdd_row (y : FVec Ideal S8192x10000 .f32) (r : Fin 8192) :
    Host.reduceAdd (F := Ideal) y (constant (F := Ideal) S_ .f32 0x00000000#32) reducesTo_S8192x10000_S8192_d1 h_S_ (ix1 r)
      = 0 + ∑ j : Fin 10000, y (ix2 r j) := by
  simp only [Host.reduceAdd, Ideal.hostReduceAdd_def]
  rw [Ideal.hostReduceAdd_single reducesTo_S8192x10000_S8192_d1 red1]
  show Ideal.ofBits .f32 0x00000000#32 + _ = _
  rw [Ideal.ofBits_zero_f32]
  refine congrArg (0 + ·) (Finset.sum_congr rfl fun j _ => ?_)
  exact congrArg y (lift_row red1 r j)

/-- From 0 the sum-reduction of a vector over its only axis is 0 plus the sum of its entries. -/
theorem reduceAdd_all (y : FVec Ideal S8192 .f32) (i : S_.Idx) :
    Host.reduceAdd (F := Ideal) y (constant (F := Ideal) S_ .f32 0x00000000#32) reducesTo_S8192_S_d0 h_S_ i
      = 0 + ∑ r : Fin 8192, y (ix1 r) := by
  simp only [Host.reduceAdd, Ideal.hostReduceAdd_def]
  rw [Ideal.hostReduceAdd_total reducesTo_S8192_S_d0 (fun b => b.elim0) y _ i]
  show Ideal.ofBits .f32 0x00000000#32 + _ = _
  rw [Ideal.ofBits_zero_f32]
  exact congrArg (0 + ·) (sum_idx1 y)

/-! ## The stages of the term at an index -/

/-- (a) The spread row maximum at (r, k): -∞ joined with the greatest of -∞ and row r's entries. -/
theorem rowMaxB_apply (x : FVec Ideal S8192x10000 .f32) (r : Fin 8192) (k : Fin 10000) :
    Term.rowMaxB (F := Ideal) x (ix2 r k) = max ⊥ (Cert.RowLoss.maxOver ⊥ fun j : Fin 10000 => x (ix2 r j)) := by
  unfold Term.rowMaxB
  rw [bcast_col_apply, bcast_row_apply, maximumf_apply, bcast_scalar_vec_apply, constant_apply, negInf_eq, reduceMax_row]

/-- (b) Log-softmax along the rows at (r, k) is the row-level log-softmax of row r at k. -/
theorem logSoftmax_apply (x : FVec Ideal S8192x10000 .f32) (r : Fin 8192) (k : Fin 10000) :
    Term.logSoftmax (F := Ideal) x (ix2 r k) = Cert.RowLoss.logSoftmax (fun j : Fin 10000 => x (ix2 r j)) k := by
  unfold Term.logSoftmax
  rw [subf_apply, subf_apply, rowMaxB_apply, bcast_col_apply, hostLog_apply, bcast_row_apply, reduceAdd_row]
  unfold Cert.RowLoss.logSoftmax
  refine congrArg (fun t => _ - Ideal.log (0 + t)) (Finset.sum_congr rfl fun j _ => ?_)
  rw [hostExp_apply, subf_apply, rowMaxB_apply]

/-- (c) Row r's loss is the row-level two-pass loss of row r of the scores under row r of the target marks. -/
theorem rowLosses_apply (A B : FVec Ideal S8192x10000 .f32) (r : Fin 8192) :
    Term.rowLosses (F := Ideal) A B (ix1 r)
      = Cert.RowLoss.lossTwoPass (fun k : Fin 10000 => A (ix2 r k)) (fun k : Fin 10000 => Cert.RowLoss.isTarget (B (ix2 r k))) := by
  unfold Term.rowLosses
  rw [hostNegf_apply, reduceMax_row]
  unfold Cert.RowLoss.lossTwoPass
  refine congrArg (fun f => - Cert.RowLoss.maxOver ⊥ f) (funext fun k => ?_)
  rw [select_apply, cmpf_apply, bcast_scalar_mat_apply, bcast_scalar_mat_apply, constant_apply, constant_apply, negInf_eq, logSoftmax_apply]
  have h1 : (fun j : Fin 10000 => Term.logSoftmax (F := Ideal) A (ix2 r j))
      = Cert.RowLoss.logSoftmax (fun j : Fin 10000 => A (ix2 r j)) := funext fun j => logSoftmax_apply A r j
  rw [h1]
  rfl

/-- (d) The program's result: the mean of the rows' two-pass losses. -/
theorem out_eq_mean (A B : FVec Ideal S8192x10000 .f32) :
    Cert.ReferenceIdeal.Term.out (F := Ideal) A B
      = fun _ => Cert.RowLoss.meanOf (fun r : Fin 8192 =>
          Cert.RowLoss.lossTwoPass (fun k : Fin 10000 => A (ix2 r k)) (fun k : Fin 10000 => Cert.RowLoss.isTarget (B (ix2 r k)))) := by
  funext i
  unfold Term.out
  rw [hostDivf_apply, constant_apply, reduceAdd_all]
  unfold Cert.RowLoss.meanOf
  refine congrArg (fun t => Ideal.div (0 + t) (Ideal.ofBits .f32 0x46000000#32)) (Finset.sum_congr rfl fun r _ => ?_)
  exact rowLosses_apply A B r

end Cert.ReferenceIdeal.TermRead

end
-- ==== Proof.RowLaw.lean ====
/-
  The one-pass and the two-pass arrangement of a row's loss agree on rows of real numbers.

  Let the row be `x`, with greatest entry `M = x k₀`; write `s k = x k - M` (so `s k ≤ 0 = s k₀`),
  `S = Σ exp (s k) > 0` and `ℓ = log S`.  Every quantity that occurs is then a real number, except the
  maximum over the targets, which is `-∞` when no entry is a target:

  * the maximum of the row is `M`, the shifted row is `s`, its normaliser is `ℓ`, and
    `(s - ℓ) + ℓ = s`, so the one-pass loss is `ℓ - max over the targets of s`;
  * `log_softmax x = s - ℓ`, whose greatest entry is `s k₀ - ℓ`; subtracting it gives `s` back,
    whose normaliser is again `ℓ`, so `log_softmax (log_softmax x) = s - ℓ` and the two-pass loss is
    `-(max over the targets of (s - ℓ))`;
  * subtracting the real `ℓ` is monotone and fixes `-∞`, so it commutes with the maximum, and
    `-(m - ℓ) = ℓ - m` for every extended real `m` because `ℓ` is real.
-/
import proofs.«143791_j31525059953025_2_alg».proof.Proof.RowSpec

noncomputable section

namespace Cert.RowLoss

open Idealize.ShloMosaic

variable {n : Nat}

/-- The maximum is at most `c` exactly when the start value and every entry are. -/
theorem maxOver_le_iff (a : EReal) (f : Fin n → EReal) (c : EReal) :
    maxOver a f ≤ c ↔ a ≤ c ∧ ∀ k, f k ≤ c := by
  unfold maxOver
  rw [Finset.fold_max_le]
  constructor
  · rintro ⟨h1, h2⟩
    exact ⟨h1, fun k => h2 k (Finset.mem_univ k)⟩
  · rintro ⟨h1, h2⟩
    exact ⟨h1, fun k _ => h2 k⟩

/-- Every entry is at most the maximum. -/
theorem le_maxOver (a : EReal) (f : Fin n → EReal) (k : Fin n) : f k ≤ maxOver a f :=
  ((maxOver_le_iff a f (maxOver a f)).1 le_rfl).2 k

/-- The maximum from `-∞` of a row of reals whose greatest entry is at `k₀`. -/
theorem maxOver_coe_of_max (f : Fin n → ℝ) (k₀ : Fin n) (h : ∀ k, f k ≤ f k₀) :
    maxOver ⊥ (fun k => ((f k : ℝ) : EReal)) = ((f k₀ : ℝ) : EReal) := by
  apply le_antisymm
  · exact (maxOver_le_iff _ _ _).2 ⟨bot_le, fun k => EReal.coe_le_coe_iff.2 (h k)⟩
  · exact le_maxOver ⊥ (fun k => ((f k : ℝ) : EReal)) k₀

/-- A finite sum of reals, taken in the extended reals. -/
theorem sum_coe (f : Fin n → ℝ) :
    (∑ k, ((f k : ℝ) : EReal)) = ((∑ k, f k : ℝ) : EReal) := by
  induction (Finset.univ : Finset (Fin n)) using Finset.induction_on with
  | empty => simp
  | insert a s ha ih => rw [Finset.sum_insert ha, Finset.sum_insert ha, ih, EReal.coe_add]

/-- A nonempty sum of exponentials is positive. -/
theorem sum_exp_pos (hn : 0 < n) (g : Fin n → ℝ) : 0 < ∑ k, Real.exp (g k) := by
  haveI : Nonempty (Fin n) := ⟨⟨0, hn⟩⟩
  exact Finset.sum_pos (fun k _ => Real.exp_pos (g k)) Finset.univ_nonempty

/-- The normaliser of a nonempty row of reals. -/
theorem logSumExp_coe (hn : 0 < n) (g : Fin n → ℝ) :
    logSumExp (fun k => ((g k : ℝ) : EReal)) = ((Real.log (∑ k, Real.exp (g k)) : ℝ) : EReal) := by
  unfold logSumExp
  simp only [Ideal.exp_coe]
  rw [sum_coe, Ideal.log_coe, if_neg (not_le.2 (sum_exp_pos hn g))]

/-- Subtracting a real commutes with the maximum from `-∞`. -/
theorem maxOver_sub_coe (f : Fin n → EReal) (l : ℝ) :
    maxOver ⊥ (fun k => f k - (l : EReal)) = maxOver ⊥ f - (l : EReal) := by
  unfold maxOver
  have hm : ∀ a b : EReal, max a b - (l : EReal) = max (a - (l : EReal)) (b - (l : EReal)) := by
    intro a b
    have hmono : Monotone (fun y : EReal => y - (l : EReal)) :=
      fun y z hyz => EReal.sub_le_sub hyz le_rfl
    exact hmono.map_max
  have h := Finset.fold_hom (op := max) (op' := max) (s := (Finset.univ : Finset (Fin n)))
    (f := f) (b := (⊥ : EReal)) (m := fun y : EReal => y - (l : EReal)) hm
  rw [EReal.bot_sub] at h
  exact h

/-- The negative of a difference with a real subtrahend. -/
theorem neg_sub_coe (m : EReal) (l : ℝ) : -(m - (l : EReal)) = (l : EReal) - m := by
  rw [EReal.neg_sub (Or.inr (EReal.coe_ne_bot l)) (Or.inr (EReal.coe_ne_top l)), add_comm,
    sub_eq_add_neg]

/-- Masking a row of reals less a real is masking the row and then subtracting. -/
theorem mask_sub_coe (μ : Fin n → BitVec 1) (g : Fin n → ℝ) (l : ℝ) :
    (fun k => if μ k = 1 then ((g k - l : ℝ) : EReal) else ⊥)
      = fun k => (if μ k = 1 then ((g k : ℝ) : EReal) else ⊥) - (l : EReal) := by
  funext k
  by_cases h : μ k = 1
  · rw [if_pos h, if_pos h, EReal.coe_sub]
  · rw [if_neg h, if_neg h, EReal.bot_sub]

/-- One log-softmax of a nonempty row of reals whose greatest entry is at `k₀`. -/
theorem logSoftmax_coe (hn : 0 < n) (y : Fin n → ℝ) (k₀ : Fin n) (h : ∀ k, y k ≤ y k₀) :
    logSoftmax (fun k => ((y k : ℝ) : EReal))
      = fun k => ((y k - y k₀ - Real.log (∑ j, Real.exp (y j - y k₀)) : ℝ) : EReal) := by
  funext k
  unfold logSoftmax
  rw [maxOver_coe_of_max y k₀ h, max_eq_right bot_le]
  simp only [← EReal.coe_sub, Ideal.exp_coe]
  rw [sum_coe, zero_add, Ideal.log_coe, if_neg (not_le.2 (sum_exp_pos hn (fun j => y j - y k₀))),
    ← EReal.coe_sub]

/-- The two arrangements of the loss agree on a nonempty row of reals. -/
theorem lossOnePass_eq_lossTwoPass {n : Nat} (hn : 0 < n) (x : Fin n → ℝ) (μ : Fin n → BitVec 1) :
    lossOnePass (fun k => ((x k : ℝ) : EReal)) μ = lossTwoPass (fun k => ((x k : ℝ) : EReal)) μ := by
  haveI : Nonempty (Fin n) := ⟨⟨0, hn⟩⟩
  obtain ⟨k₀, hk₀⟩ := Finite.exists_max x
  -- the shifted row
  have hshift : shifted (fun k => ((x k : ℝ) : EReal)) = fun k => ((x k - x k₀ : ℝ) : EReal) := by
    funext k
    unfold shifted
    rw [maxOver_coe_of_max x k₀ hk₀, ← EReal.coe_sub]
  -- its normaliser
  have hL : logSumExp (shifted (fun k => ((x k : ℝ) : EReal)))
      = ((Real.log (∑ j, Real.exp (x j - x k₀)) : ℝ) : EReal) := by
    rw [hshift]
    exact logSumExp_coe hn (fun k => x k - x k₀)
  -- subtracting and adding the normaliser changes nothing
  have hrec : recentred (fun k => ((x k : ℝ) : EReal)) = fun k => ((x k - x k₀ : ℝ) : EReal) := by
    funext k
    unfold recentred
    rw [hL, hshift, ← EReal.coe_sub, ← EReal.coe_add, sub_add_cancel]
  have hL2 : logSumExp (recentred (fun k => ((x k : ℝ) : EReal)))
      = ((Real.log (∑ j, Real.exp (x j - x k₀)) : ℝ) : EReal) := by
    rw [hrec]
    exact logSumExp_coe hn (fun k => x k - x k₀)
  -- the first log-softmax
  have h1 := logSoftmax_coe hn x k₀ hk₀
  -- the second one: its row is again greatest at `k₀`
  have hk₀' : ∀ k, x k - x k₀ - Real.log (∑ j, Real.exp (x j - x k₀))
      ≤ x k₀ - x k₀ - Real.log (∑ j, Real.exp (x j - x k₀)) :=
    fun k => sub_le_sub_right (sub_le_sub_right (hk₀ k) _) _
  have h2 := logSoftmax_coe hn
    (fun k => x k - x k₀ - Real.log (∑ j, Real.exp (x j - x k₀))) k₀ hk₀'
  have hcancel : ∀ k, x k - x k₀ - Real.log (∑ j, Real.exp (x j - x k₀))
      - (x k₀ - x k₀ - Real.log (∑ j, Real.exp (x j - x k₀))) = x k - x k₀ := by
    intro k
    ring
  simp only [hcancel] at h2
  unfold lossOnePass lossTwoPass
  rw [hL2, hrec, h1, h2, mask_sub_coe μ (fun k => x k - x k₀), maxOver_sub_coe, neg_sub_coe]

end Cert.RowLoss

end
-- ==== Proof.Finite.lean ====
/-
  What the precondition says of the scores: every entry is a real number.

  The precondition is the conjunction of two tests, one per argument array: the absolute value of every
  entry is below `+∞`.  A conjunction of bits is one exactly when both are; an `all` over every axis that
  is one has a one at every entry; and an extended real `x` with `max x (-x) < +∞` is neither infinity,
  because `max x (-x) = +∞` at both.
-/
import proofs.«143791_j31525059953025_2_alg».proof.Proof.Gen.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Entries

open Cert.Pre_finite_inputs Cert.Pre_finite_inputs.Gen Idealize.ShloMosaic

/-- The scalar shape has one index. -/
instance : Subsingleton S_.Idx := ⟨fun a b => funext fun d => d.elim0⟩

/-- The word `0x7F800000` denotes `+∞`. -/
theorem ofBits_posInf : Ideal.ofBits .f32 0x7F800000#32 = (⊤ : EReal) := by
  simp [Ideal.ofBits, Ideal.ieee]

/-- An extended real whose absolute value is below `+∞` is a real number. -/
theorem exists_real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- Under the precondition every entry of the first argument array is a real number. -/
theorem scores_real (A B : FVec Ideal S8192x10000 .f32) (h : fn (F := Ideal) A B = fun _ => 1#1)
    (i : S8192x10000.Idx) : ∃ r : ℝ, A i = (r : EReal) := by
  have h0 : fn (F := Ideal) A B ValueIdx.ix0 = 1#1 := congrFun h _
  dsimp only [fn] at h0
  have h1 := (IntOp.andi_eq_one.mp h0).1
  have h2 := Host.reduce_andi_all _ _ _ _ _ h1 i
  have h3 : Ideal.cmp .olt (max (A i) (-(A i))) (Ideal.ofBits .f32 0x7F800000#32) = 1#1 := h2
  rw [ofBits_posInf] at h3
  have h4 : max (A i) (-(A i)) < ⊤ := by
    by_contra hn
    have h5 : Ideal.cmp .olt (max (A i) (-(A i))) ⊤ = 0#1 := by simp [Ideal.cmp, hn]
    rw [h5] at h3
    exact absurd h3 (by decide)
  exact exists_real_of_abs_lt_top _ h4

end Cert.Pre_finite_inputs.Entries

end
-- ==== Proof.lean ====
/-
  The mean, over 8192 rows, of a row's loss under a doubly applied log-softmax: a kernel that computes
  each row's loss in one pass against a host program that applies log-softmax twice.

  For a row `x` of 10000 scores write `s = x - max x` and `L = log Σ exp s`.  The kernel never forms the
  second log-softmax: it normalises `(s - L) + L` once more, `L₂ = log Σ exp ((s - L) + L)`, and returns
  `L₂ - max over the targets of ((s - L) + L)`; the host returns `-(max over the targets of
  log_softmax (log_softmax x))`.  A target is an entry whose label equals one; with no target both are `+∞`.
  On rows of real numbers the two agree (RowLaw.lean): `(s - L) + L = s`, the greatest entry of
  `log_softmax x = s - L` is `-L` because the greatest entry of `s` is `0`, so the second log-softmax returns
  `s - L` again, and subtracting the real `L` commutes with the maximum over the targets.  The precondition
  makes every score a real number (Finite.lean).  Both programs then take the same mean of the 8192 losses.

  The kernel program's result is read off its generated frame run: each grid point writes back the losses
  of its 128 rows, the 64 blocks tile the column of losses, and the host lines after the region add the
  column and divide (KernelRow.lean, KernelValue.lean).  The host program's result is its 43 operations
  folded (RefRun.lean) and read row by row (RefTerm.lean, RefRead.lean).  The idealization rewrote no
  operation of the kernel, so that conjunct is `True`.
-/
import proofs.«143791_j31525059953025_2_alg».proof.Defs
import proofs.«143791_j31525059953025_2_alg».proof.Proof.Gen.Kernel
import proofs.«143791_j31525059953025_2_alg».proof.Proof.Gen.Kernel.Frame
import proofs.«143791_j31525059953025_2_alg».proof.Proof.Gen.KernelIdeal
import proofs.«143791_j31525059953025_2_alg».proof.Proof.Gen.KernelIdeal.Frame
import proofs.«143791_j31525059953025_2_alg».proof.Proof.Gen.ReferenceIdeal
import proofs.«143791_j31525059953025_2_alg».proof.Proof.Gen.Pre_finite_inputs
import proofs.«143791_j31525059953025_2_alg».proof.Proof.KernelValue
import proofs.«143791_j31525059953025_2_alg».proof.Proof.RefRun
import proofs.«143791_j31525059953025_2_alg».proof.Proof.RefRead
import proofs.«143791_j31525059953025_2_alg».proof.Proof.RowLaw
import proofs.«143791_j31525059953025_2_alg».proof.Proof.Finite
import Idealize.ShloMosaic.Adequacy
import Idealize.ShloMosaic.Init

noncomputable section

namespace Cert.Proof

open Idealize.ShloMosaic Idealize.SL.Sem Idealize.ShloMosaic.ValueIdx

/-- The kernel program runs and leaves its arguments unchanged (the generated frame). -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The host program runs and leaves its arguments unchanged: its run with the result dropped. -/
theorem frame_reference : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- The mean of the rows' two-pass losses is the mean of their one-pass losses when every score is a real number. -/
theorem mean_eq (A B : (⟨2, ![8192, 10000]⟩ : Shape).Idx → EReal) (hA : ∀ i, ∃ r : ℝ, A i = (r : EReal)) :
    (fun _ : (⟨0, ![]⟩ : Shape).Idx => Cert.RowLoss.meanOf (fun r : Fin 8192 =>
        Cert.RowLoss.lossTwoPass (fun k : Fin 10000 => A (ix2 r k)) (fun k : Fin 10000 => Cert.RowLoss.isTarget (B (ix2 r k)))))
      = Cert.KernelIdeal.Hand.meanLoss A B := by
  choose x hx using hA
  unfold Cert.KernelIdeal.Hand.meanLoss
  funext _
  refine congrArg Cert.RowLoss.meanOf (funext fun r => ?_)
  have e : (fun k : Fin 10000 => A (ix2 r k)) = fun k : Fin 10000 => ((x (ix2 r k) : ℝ) : EReal) :=
    funext fun k => hx _
  rw [e]
  exact (Cert.RowLoss.lossOnePass_eq_lossTwoPass (by decide) _ _).symm

/-- From memories agreeing on the arguments both programs end at the mean of the rows' losses. -/
theorem algebraic : Cert.algebraic_KernelIdeal_ReferenceIdeal := by
  intro m ρ m' ρ' hpre hagree
  refine ⟨fun c => Cert.KernelIdeal.Hand.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2, Cert.ReferenceIdeal.TermRead.out_eq_mean]
  exact mean_eq _ _ (fun i => Cert.Pre_finite_inputs.Entries.scores_real _ _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
